-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S10000x10000 .f32) (main_arg1 : FVec F S10000x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  main_v8
-- ==== Kernel.lean ====
abbrev S10000x10000 : Shape := ⟨2, ![10000, 10000]⟩
abbrev S10000x128 : Shape := ⟨2, ![10000, 128]⟩
abbrev S400x10000 : Shape := ⟨2, ![400, 10000]⟩
abbrev S2000x128 : Shape := ⟨2, ![2000, 128]⟩
abbrev S400x128 : Shape := ⟨2, ![400, 128]⟩

abbrev nBuf : Space → Nat
  | .hbm => 3
  | .vmem => 6
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S2000x128, .f32⟩
  | .local _ .vmem, ⟨4, _⟩ => ⟨S2000x128, .f32⟩
  | .local _ .vmem, ⟨5, _⟩ => ⟨S10000x128, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c5_i32 : BitVec 32 := 5#32
  let v3 : BitVec 32 := Scalar.remsi arg0 c5_i32
  let c400_i32 : BitVec 32 := 400#32
  let v8 : BitVec 32 := Scalar.muli v3 c400_i32
  let v9 : Index := Scalar.indexCast v8
  let c0_4 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  h_S400x128 : 0 < S400x128.numel
  dot_S400x10000_S10000x128_S400x128_1_0_0_1_n_n_wf : DotDims.WF S400x10000 S10000x128 S400x128 [1] [0] [0] [1] [] []
  hrank0 : 0 < grid0.rank
  k0_off1_inb : ∀ i : grid0.Coords, ∀ a, (k0_off1 i) a + S400x128.size a ≤ S2000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩

abbrev nBuf : Space → Nat
  | .hbm => 3
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KBody.lean ====
/-
  The kernel's body at one grid point, as two triples, at any float instance.

  At every point the body multiplies its 400 x 10000 block of the first argument by the 10000 x 128 matrix it keeps
  in its scratch buffer, and stores the 400 x 128 product into the rows `[400 * (i mod 5), 400 * (i mod 5) + 400)`
  of the 2000 x 128 output block it is handed; the other 1600 rows of that block it leaves as it found them. At the
  first point, before the product, it fills the scratch buffer with the second argument's block, narrowed.
  So what the output block holds after a point is a function of what it held before (`slab`), and the scratch
  buffer holds the narrowed second argument from the first point on.
-/
import proofs.«144783_g26963804685200_cont_9to1_293_19_alg».proof.Proof.Gen.Kernel.Frame
import proofs.«144783_g26963804685200_cont_9to1_293_19_alg».proof.Proof.Gen.Kernel.Skeleton
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## A block with 400 of its rows replaced -/

/-- The 2000 x 128 block `Y` with the rows `[off 0, off 0 + 400)` replaced by the 400 x 128 block `w`. -/
def slab (off : Fin 2 → ℕ) (inb : ∀ a, off a + S400x128.size a ≤ S2000x128.size a) (Y : Vec F S2000x128 .f32)
    (w : (Rect.unit (s := S2000x128) off S400x128.size inb).shape.Idx → Elt F .f32) : Vec F S2000x128 .f32 :=
  fun y => if h : ∀ a, off a ≤ (y a).val ∧ (y a).val < off a + S400x128.size a then
      w (Rect.unitLocal (s := S2000x128) (off := off) (size := S400x128.size) y h)
    else Y y

/-- One store of `w` through those rows of a whole buffer holding `Y` leaves `slab … Y w`. -/
theorem read_store_slab (arg : Memref sig .tc .vmem S2000x128 .f32) (harg : arg.IsWhole) (off : Fin 2 → ℕ)
    (inb : ∀ a, off a + S400x128.size a ≤ S2000x128.size a) (Y : Vec F S2000x128 .f32)
    (w : (Rect.unit (s := S2000x128) off S400x128.size inb).shape.Idx → Elt F .f32) :
    arg.view.read (Elt F) (arg.view.writes (Elt F) (harg.unread Y) [⟨Rect.unit (s := S2000x128) off S400x128.size inb, w⟩])
      = slab off inb Y w := by
  funext y
  rw [View.read_writes_cons_unit arg.view (harg.unread Y) inb w [] y rfl]
  unfold slab
  by_cases h : ∀ a, off a ≤ (y a).val ∧ (y a).val < off a + S400x128.size a
  · rw [dif_pos h, dif_pos h]
  · rw [dif_neg h, dif_neg h, View.writes_nil, harg.read_unread]

/-- The zero offsets of a whole-buffer access. -/
theorem zero_off : (![0, 0] : Fin 2 → ℕ) = fun _ => 0 := by
  funext a; fin_cases a <;> rfl

/-- A load of a whole buffer that holds `X` reads `X`. -/
theorem load_whole {S : Shape} {e : EltTy} (hS : S.rank = 2 := by rfl) (arg : Memref sig .tc .vmem S e) (harg : arg.IsWhole)
    (off : Fin S.rank → ℕ) (hoff : off = fun _ => 0) (inb : ∀ a, off a + S.size a ≤ S.size a) (X : Vec F S e) :
    View.readAt (Elt F) arg.view (Rect.unit (s := S) off S.size inb).toLoadRect (harg.unread X) = X := by
  rw [View.readAt_eq_ld, harg.read_unread]; exact View.ld_unit_zero hoff inb X

/-! ## The branch on the first point -/

/-- The body's one condition, as the printed scalar chain computes it from the grid coordinate. -/
abbrev first (i : grid0.Coords) : Prop :=
  (Scalar.cmpi .ne (Scalar.extui (Scalar.cmpi .eq (BitVec.ofNat 32 (i 0).val) 0#32)) 0#32) = 1#1

/-- It holds at point 0 and at no other. -/
theorem first_iff : ∀ t : Fin cfg0.N, first (grid0.coords t) ↔ t.val = 0 :=
  (by decide +kernel : ∀ t : Fin grid0.N, first (grid0.coords t) ↔ t.val = 0)

/-! ## The two triples -/

set_option maxHeartbeats 1000000 in
/-- At a later point: the scratch buffer, holding `s`, is read and kept; the output block, holding `Y`, ends with the
    product of the first argument's block and `s` on this point's 400 rows. -/
theorem run_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S2000x128 .f32) (harg3 : arg3.IsWhole) (arg4 : Memref sig .tc .vmem S10000x128 .bf16) (harg4 : arg4.IsWhole) (hc0 : ¬first i)
    (x0 : Vec F S400x10000 .f32) (x1 : Vec F S10000x128 .f32) (Y : Vec F S2000x128 .f32) (s : Vec F S10000x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare Y ∗ owns (c : Thread nD τ) arg4 fullShare s
            ∗ (iprop(owns (c : Thread nD τ) arg1 fullShare x0 ∗ owns (c : Thread nD τ) arg2 fullShare x1
                ∗ owns (c : Thread nD τ) arg3 fullShare (slab (k0_off1 i) (k0_off1_inb i) Y (k0_pay2 x0 s))
                ∗ owns (c : Thread nD τ) arg4 fullShare s) -∗ K ⟨⟩))
          ⊢ wp frame (wpE (defs₀ (F := F)) Variants.none c none) E (cc0__mm_kernel i arg1 harg1 arg2 harg2 arg3 harg3 arg4 harg4) K := by
    intro E K
    simp only [cc0__mm_kernel_eq_skeleton]; unfold cc0__mm_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0)
    sl_step
    rw [load_whole rfl arg1 harg1 _ zero_off _ x0, load_whole rfl arg4 harg4 _ zero_off _ s]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact read_store_slab arg3 harg3 (k0_off1 i) (k0_off1_inb i) Y (k0_pay2 x0 s)
    iexists _; isplitr; · ipureintro; exact harg4.read_unread _
    iexact HS0

set_option maxHeartbeats 1000000 in
/-- At the first point: the scratch buffer, holding anything, is filled with the second argument's block narrowed and then
    read back; the output block, holding `Y`, ends with the product of the first argument's block and that on rows
    `[0, 400)`. -/
theorem run_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S2000x128 .f32) (harg3 : arg3.IsWhole) (arg4 : Memref sig .tc .vmem S10000x128 .bf16) (harg4 : arg4.IsWhole) (hc0 : first i)
    (x0 : Vec F S400x10000 .f32) (x1 : Vec F S10000x128 .f32) (Y : Vec F S2000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare Y ∗ (∃ d, owns (c : Thread nD τ) arg4 fullShare d)
            ∗ (iprop(owns (c : Thread nD τ) arg1 fullShare x0 ∗ owns (c : Thread nD τ) arg2 fullShare x1
                ∗ owns (c : Thread nD τ) arg3 fullShare (slab (k0_off1 i) (k0_off1_inb i) Y (k0_pay2 x0 (k0_pay1 x1)))
                ∗ owns (c : Thread nD τ) arg4 fullShare (k0_pay1 x1)) -∗ K ⟨⟩))
          ⊢ wp frame (wpE (defs₀ (F := F)) Variants.none c none) E (cc0__mm_kernel i arg1 harg1 arg2 harg2 arg3 harg3 arg4 harg4) K := by
    intro E K
    simp only [cc0__mm_kernel_eq_skeleton]; unfold cc0__mm_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0)
    sl_step
    have hfill : run_first.sl.HS0_1 c arg2 harg2 x1
        = [(⟨Rect.unit (s := S10000x128) ![0, 0] S10000x128.size inb_S10000x128_S10000x128_0_0, k0_pay1 x1⟩ : View.Piece (Elt F) S10000x128 .bf16)] := by
      unfold run_first.sl.HS0_1
      rw [load_whole rfl arg2 harg2 _ zero_off _ x1]
    have hback : run_first.sl.v6 c arg2 harg2 arg4 x1 = k0_pay1 x1 := by
      unfold run_first.sl.v6
      rw [hfill]
      exact View.readCov_unit_zero (Val := Elt F) arg4.view zero_off inb_S10000x128_S10000x128_0_0 (k0_pay1 x1)
    rw [load_whole rfl arg1 harg1 _ zero_off _ x0, hback, hfill]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact read_store_slab arg3 harg3 (k0_off1 i) (k0_off1_inb i) Y (k0_pay2 x0 (k0_pay1 x1))
    iexists _; isplitr; swap; · iexact HS0
    ipureintro
    funext y
    exact View.read_writes_cons_unit_of_mem (Val := Elt F) arg4.view fs0 inb_S10000x128_S10000x128_0_0 (k0_pay1 x1) [] y y rfl
      (fun a => by fin_cases a <;> exact (Nat.zero_add _).symm)

end Cert.Kernel.Hand

end
-- ==== Proof.KData.lean ====
/-
  The pipeline's proof data, the body obligation and the run, at any float instance.

  The grid has 25 points. The first argument's block changes at every point; the second argument is one block, fetched
  once; the output array is cut into five blocks of 2000 rows, block `t / 5` staged over the five points
  `5 * (t / 5) … 5 * (t / 5) + 4` and written back after the last of them. A point changes only its own 400 rows of the
  staged output block, so what the block holds after a point is stated as a RELATION to what it held before
  (`step`): the first point of a group of five is handed a block whose contents nothing names.
  The scratch buffer is carried from point to point: from the first point on it holds the second argument narrowed
  (`kept`), which the invariant `inv` records.
-/
import proofs.«144783_g26963804685200_cont_9to1_293_19_alg».proof.Proof.Gen.Kernel.Frame
import proofs.«144783_g26963804685200_cont_9to1_293_19_alg».proof.Proof.Gen.Kernel.Skeleton
import proofs.«144783_g26963804685200_cont_9to1_293_19_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev mem0 (t : Fin cfg0.N) : Memref sig .tc .vmem S400x10000 .f32 := win0_0.stage (cfg0.slots t 0)
abbrev mem1 (t : Fin cfg0.N) : Memref sig .tc .vmem S10000x128 .f32 := win0_1.stage (cfg0.slots t 1)
abbrev mem2 (t : Fin cfg0.N) : Memref sig .tc .vmem S2000x128 .f32 := win0_2.stage (cfg0.slots t 2)
/-- The scratch buffer: a whole scoped buffer of the kernel's own. -/
abbrev scratch : Memref sig .tc .vmem S10000x128 .bf16 := Memref.whole cc0_scratch0

/-- The class's invariant hands the body the scratch buffer at some contents, and the generator register. -/
theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## What the scratch buffer carries -/

/-- The first grid point. -/
abbrev t0 : Fin cfg0.N := ⟨0, by decide⟩

/-- The second argument's one block, narrowed: what the first point leaves in the scratch buffer. -/
def kept (c : Dev nD) : Vec F S10000x128 .bf16 := k0_pay1 (iblk m c 1 t0)

/-- The invariant before point `n`: before the first the class's (the scratch at anything), afterwards the scratch at
    `kept`. -/
def inv (c : Dev nD) : ℕ → sProp 𝕄
  | 0 => Pipeline.ΦA spec0 c
  | _ + 1 => iprop(iprop(owns (c : Thread nD τ) scratch fullShare (kept m c)) ∗ (∃ r, prngReg c r))

theorem inv_succ (c : Dev nD) (n : ℕ) :
    inv m c (n + 1) = iprop(iprop(owns (c : Thread nD τ) scratch fullShare (kept m c)) ∗ (∃ r, prngReg c r)) := rfl

theorem inv_pos (c : Dev nD) (n : ℕ) (h : n ≠ 0) :
    inv m c n = iprop(iprop(owns (c : Thread nD τ) scratch fullShare (kept m c)) ∗ (∃ r, prngReg c r)) := by
  cases n with
  | zero => exact absurd rfl h
  | succ n => rfl

/-! ## The proof data -/

/-- The exact part: the arrays as the region finds them, each input's buffer at its block after the body, the
    invariant. The output window's entry is a placeholder, replaced below by the relation `step`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := inv m c t.val
  q _ := fullShare
  owed _ := 0

/-- The 400 x 128 product point `t` stores: its block of the first argument against `kept`. -/
def prod (c : Dev nD) (t : Fin cfg0.N) : FVec F S400x128 .f32 := k0_pay2 (iblk m c 0 t) (kept m c)

/-- What point `t` makes of the staged output block: its own 400 rows replaced by `prod`, the rest kept. -/
def step (c : Dev nD) (t : Fin cfg0.N) (Y X : Vec F S2000x128 .f32) : Prop :=
  X = slab (k0_off1 (grid0.coords t)) (k0_off1_inb (grid0.coords t)) Y (prod m c t)

/-- The proof data: exact for the inputs, the relation `step` for the output window. -/
def rdat (c : Dev nD) : RDat τ (Elt F) Unit ℕ (UR sig nD τ) ℕ cfg0 c :=
  (dat m c).toR.override fun w => match w with
    | ⟨0, _⟩ => none
    | ⟨1, _⟩ => none
    | ⟨2, _⟩ => some (step m c)

theorem rdat_A (c : Dev nD) (w : Fin cfg0.W) : (rdat m c).A w = V m c (Pipeline.arrRef spec0 w) := by
  dsimp only [rdat, dat, RDat.override, Dat.toR]

theorem after2 (c : Dev nD) : (rdat m c).after 2 = step m c :=
  RDat.override_after_of_eq_some (rd := (dat m c).toR) rfl

theorem after0 (c : Dev nD) (t : Fin cfg0.N) (Y X : Vec F S400x10000 .f32) :
    (rdat m c).after 0 t Y X ↔ X = iblk m c 0 t := by
  rw [show (rdat m c).after 0 = (dat m c).toR.after 0 from RDat.override_after_of_eq_none (rd := (dat m c).toR) rfl]
  show (dat m c).Leaves 0 t X ↔ _
  rw [Dat.Leaves.live_iff _ (.inl rfl)]
  dsimp only [dat]
  exact Iff.rfl

theorem after1 (c : Dev nD) (t : Fin cfg0.N) (Y X : Vec F S10000x128 .f32) :
    (rdat m c).after 1 t Y X ↔ X = iblk m c 1 t := by
  rw [show (rdat m c).after 1 = (dat m c).toR.after 1 from RDat.override_after_of_eq_none (rd := (dat m c).toR) rfl]
  show (dat m c).Leaves 1 t X ↔ _
  rw [Dat.Leaves.live_iff _ (.inl rfl)]
  dsimp only [dat]
  exact Iff.rfl

/-- An input's staging buffer is found at its block, fetched at the point or not. -/
theorem finds0 (c : Dev nD) (t : Fin cfg0.N) (Y : Vec F S400x10000 .f32) (h : (rdat m c).Finds 0 t Y) : Y = iblk m c 0 t := by
  unfold rdat at h
  have h' : (dat m c).toR.Finds 0 t Y := (RDat.override_finds (rd := (dat m c).toR) (w := 0) rfl t Y).mp h
  obtain ⟨d, rfl⟩ := (dat m c).toR_finds 0 t Y h'
  exact before0_0_of m (dat m c) (by dsimp only [dat]) (fun t => by dsimp only [dat]) t d

theorem finds1 (c : Dev nD) (t : Fin cfg0.N) (Y : Vec F S10000x128 .f32) (h : (rdat m c).Finds 1 t Y) : Y = iblk m c 1 t := by
  unfold rdat at h
  have h' : (dat m c).toR.Finds 1 t Y := (RDat.override_finds (rd := (dat m c).toR) (w := 1) rfl t Y).mp h
  obtain ⟨d, rfl⟩ := (dat m c).toR_finds 1 t Y h'
  exact before0_1_of m (dat m c) (by dsimp only [dat]) (fun t => by dsimp only [dat]) t d

end Cert.Kernel.Hand

end
-- ==== Proof.KRun.lean ====
/-
  The body obligation at every point, and the run of the whole program.

  At a point the body is handed its two input blocks (found at the arrays' blocks, fetched there or not), the staged
  output block at whatever the points before left in it, and the invariant; it returns the inputs as they were, the
  output block one `step` further, and the invariant of the next point. At the first point that is the first
  triple (the scratch buffer filled), at every other the second (the scratch buffer read).
  The library's launch then gives: every weakly fair execution terminates, the output array ends at contents obtained
  from its entry contents by five write-backs of blocks the points may have left, and the argument arrays are unchanged.
-/
import proofs.«144783_g26963804685200_cont_9to1_293_19_alg».proof.Proof.Gen.Kernel.Frame
import proofs.«144783_g26963804685200_cont_9to1_293_19_alg».proof.Proof.Gen.Kernel.Skeleton
import proofs.«144783_g26963804685200_cont_9to1_293_19_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at point `t`, its inputs at their blocks and the staged output block at `Y`. -/
theorem sound_body (c : Dev nD) (t : Fin cfg0.N) (Y : Vec F S2000x128 .f32) :
    iprop((rdat m c).Φ t.castSucc ∗ (rdat m c).owesAt () t.castSucc
        ∗ owns (c : Thread nD τ) (mem0 t) fullShare (iblk m c 0 t) ∗ owns (c : Thread nD τ) (mem1 t) fullShare (iblk m c 1 t)
        ∗ owns (c : Thread nD τ) (mem2 t) fullShare Y)
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (iblk m c 0 t) X⌝ ∗ owns (c : Thread nD τ) (mem0 t) fullShare X)
          ∗ (∃ X, ⌜(rdat m c).after 1 t (iblk m c 1 t) X⌝ ∗ owns (c : Thread nD τ) (mem1 t) fullShare X)
          ∗ (∃ X, ⌜(rdat m c).after 2 t Y X⌝ ∗ owns (c : Thread nD τ) (mem2 t) fullShare X))) := by
  unfold bodyAt0
  rw [show (rdat m c).owesAt () t.succ = (rdat m c).owesAt () t.castSucc from rfl,
    show (rdat m c).Φ t.succ = inv m c (t.val + 1) from rfl, inv_succ,
    show (rdat m c).Φ t.castSucc = inv m c t.val from rfl]
  by_cases hz : t.val = 0
  · obtain rfl : t = t0 := Fin.ext hz
    rw [show inv m c (t0 : Fin cfg0.N).val = Pipeline.ΦA spec0 c from rfl, PhiA_eq]
    iintro ⟨⟨HS, Hg⟩, Ho, H0, H1, H2⟩
    iapply (run_first c (grid0.coords t0) _ _ _ _ _ _ _ _ ((first_iff t0).mpr rfl) (iblk m c 0 t0) (iblk m c 1 t0) Y Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexact HS
      iexact Hg
    isplitl [Ho]; · iexact Ho
    isplitl [H0]
    · iexists _; isplitr; swap; · iexact H0
      ipureintro; exact (after0 m c t0 _ _).mpr rfl
    isplitl [H1]
    · iexists _; isplitr; swap; · iexact H1
      ipureintro; exact (after1 m c t0 _ _).mpr rfl
    iexists _; isplitr; swap; · iexact H2
    ipureintro; rw [after2]; exact rfl
  · rw [inv_pos m c t.val hz]
    iintro ⟨⟨HS, Hg⟩, Ho, H0, H1, H2⟩
    iapply (run_later c (grid0.coords t) _ _ _ _ _ _ _ _ (fun h => hz ((first_iff t).mp h)) (iblk m c 0 t) (iblk m c 1 t) Y (kept m c) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexact HS
      iexact Hg
    isplitl [Ho]; · iexact Ho
    isplitl [H0]
    · iexists _; isplitr; swap; · iexact H0
      ipureintro; exact (after0 m c t _ _).mpr rfl
    isplitl [H1]
    · iexists _; isplitr; swap; · iexact H1
      ipureintro; exact (after1 m c t _ _).mpr rfl
    iexists _; isplitr; swap; · iexact H2
    ipureintro; rw [after2]; exact rfl

/-- The library's body obligation for the relational proof data, at every point. -/
theorem body_obligation (c : Dev nD) : (rdat m c).BodyObligation (defs₀ (F := F)) Variants.none () Set.univ := fun t Y hY => by
  have e0 := finds0 m c t (Y 0) (hY 0)
  have e1 := finds1 m c t (Y 1) (hY 1)
  rw [bigSep_W0, bigSep_W0, e0, e1]
  exact sound_body m c t (Y 2)

/-- What the launch hands the region is the invariant before the first point. -/
theorem hin (c : Dev nD) : Pipeline.ΦA spec0 c ⊢ (rdat m c).Φ 0 := by
  show (Pipeline.ΦA spec0 c : sProp 𝕄) ⊢ Pipeline.ΦA spec0 c
  exact .rfl

/-- After the last point the invariant gives the class's back: what the scratch buffer holds is forgotten. -/
theorem hout (c : Dev nD) : (rdat m c).Φ (Fin.last cfg0.N) ⊢ Pipeline.ΦA spec0 c := by
  rw [show (rdat m c).Φ (Fin.last cfg0.N) = inv m c (Fin.last cfg0.N).val from rfl,
    inv_pos m c _ (by rw [Fin.val_last]; have : cfg0.N = 25 := N_0; omega), PhiA_eq]
  iintro ⟨HS, Hg⟩
  isplitl [HS]
  · iexists _; iexact HS
  iexact Hg

set_option backward.isDefEq.respectTransparency.types false in
/-- Every weakly fair execution of the program terminates; every array of the pipeline ends at contents the proof data
    allows after every write-back, every other unscoped buffer as it was. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hin := hin m) (hout := hout m)

/-- The frame: the program runs and its two argument arrays end as they began (an input array is never written
    back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun ((rdat m c).ArrAt_in 0 rfl _) _) ((h c).1 0)).trans ((rdat_A m c 0).trans (V_main_arg0 m c)),
      (Eq.mp (congrFun ((rdat m c).ArrAt_in 1 rfl _) _) ((h c).1 1)).trans ((rdat_A m c 1).trans (V_main_arg1 m c))⟩)
    (run_main m ρ)

end Cert.Kernel.Hand

end
-- ==== Proof.Body.lean ====
/-
  The kernel's body at one grid point, as two triples, at any float instance.

  At every point the body multiplies its 400 x 10000 block of the first argument by the 10000 x 128 matrix it keeps
  in its scratch buffer, and stores the 400 x 128 product into the rows `[400 * (i mod 5), 400 * (i mod 5) + 400)`
  of the 2000 x 128 output block it is handed; the other 1600 rows of that block it leaves as it found them. At the
  first point, before the product, it fills the scratch buffer with the second argument's block, narrowed.
  So what the output block holds after a point is a function of what it held before (`slab`), and the scratch
  buffer holds the narrowed second argument from the first point on.
-/
import proofs.«144783_g26963804685200_cont_9to1_293_19_alg».proof.Proof.Gen.KernelIdeal.Frame
import proofs.«144783_g26963804685200_cont_9to1_293_19_alg».proof.Proof.Gen.KernelIdeal.Skeleton
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## A block with 400 of its rows replaced -/

/-- The 2000 x 128 block `Y` with the rows `[off 0, off 0 + 400)` replaced by the 400 x 128 block `w`. -/
def slab (off : Fin 2 → ℕ) (inb : ∀ a, off a + S400x128.size a ≤ S2000x128.size a) (Y : Vec F S2000x128 .f32)
    (w : (Rect.unit (s := S2000x128) off S400x128.size inb).shape.Idx → Elt F .f32) : Vec F S2000x128 .f32 :=
  fun y => if h : ∀ a, off a ≤ (y a).val ∧ (y a).val < off a + S400x128.size a then
      w (Rect.unitLocal (s := S2000x128) (off := off) (size := S400x128.size) y h)
    else Y y

/-- One store of `w` through those rows of a whole buffer holding `Y` leaves `slab … Y w`. -/
theorem read_store_slab (arg : Memref sig .tc .vmem S2000x128 .f32) (harg : arg.IsWhole) (off : Fin 2 → ℕ)
    (inb : ∀ a, off a + S400x128.size a ≤ S2000x128.size a) (Y : Vec F S2000x128 .f32)
    (w : (Rect.unit (s := S2000x128) off S400x128.size inb).shape.Idx → Elt F .f32) :
    arg.view.read (Elt F) (arg.view.writes (Elt F) (harg.unread Y) [⟨Rect.unit (s := S2000x128) off S400x128.size inb, w⟩])
      = slab off inb Y w := by
  funext y
  rw [View.read_writes_cons_unit arg.view (harg.unread Y) inb w [] y rfl]
  unfold slab
  by_cases h : ∀ a, off a ≤ (y a).val ∧ (y a).val < off a + S400x128.size a
  · rw [dif_pos h, dif_pos h]
  · rw [dif_neg h, dif_neg h, View.writes_nil, harg.read_unread]

/-- The zero offsets of a whole-buffer access. -/
theorem zero_off : (![0, 0] : Fin 2 → ℕ) = fun _ => 0 := by
  funext a; fin_cases a <;> rfl

/-- A load of a whole buffer that holds `X` reads `X`. -/
theorem load_whole {S : Shape} {e : EltTy} (hS : S.rank = 2 := by rfl) (arg : Memref sig .tc .vmem S e) (harg : arg.IsWhole)
    (off : Fin S.rank → ℕ) (hoff : off = fun _ => 0) (inb : ∀ a, off a + S.size a ≤ S.size a) (X : Vec F S e) :
    View.readAt (Elt F) arg.view (Rect.unit (s := S) off S.size inb).toLoadRect (harg.unread X) = X := by
  rw [View.readAt_eq_ld, harg.read_unread]; exact View.ld_unit_zero hoff inb X

/-! ## The branch on the first point -/

/-- The body's one condition, as the printed scalar chain computes it from the grid coordinate. -/
abbrev first (i : grid0.Coords) : Prop :=
  (Scalar.cmpi .ne (Scalar.extui (Scalar.cmpi .eq (BitVec.ofNat 32 (i 0).val) 0#32)) 0#32) = 1#1

/-- It holds at point 0 and at no other. -/
theorem first_iff : ∀ t : Fin cfg0.N, first (grid0.coords t) ↔ t.val = 0 :=
  (by decide +kernel : ∀ t : Fin grid0.N, first (grid0.coords t) ↔ t.val = 0)

/-! ## The two triples -/

set_option maxHeartbeats 1000000 in
/-- At a later point: the scratch buffer, holding `s`, is read and kept; the output block, holding `Y`, ends with the
    product of the first argument's block and `s` on this point's 400 rows. -/
theorem run_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S2000x128 .f32) (harg3 : arg3.IsWhole) (arg4 : Memref sig .tc .vmem S10000x128 .bf16) (harg4 : arg4.IsWhole) (hc0 : ¬first i)
    (x0 : Vec F S400x10000 .f32) (x1 : Vec F S10000x128 .f32) (Y : Vec F S2000x128 .f32) (s : Vec F S10000x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare Y ∗ owns (c : Thread nD τ) arg4 fullShare s
            ∗ (iprop(owns (c : Thread nD τ) arg1 fullShare x0 ∗ owns (c : Thread nD τ) arg2 fullShare x1
                ∗ owns (c : Thread nD τ) arg3 fullShare (slab (k0_off1 i) (k0_off1_inb i) Y (k0_pay2 x0 s))
                ∗ owns (c : Thread nD τ) arg4 fullShare s) -∗ K ⟨⟩))
          ⊢ wp frame (wpE (defs₀ (F := F)) Variants.none c none) E (cc0__mm_kernel i arg1 harg1 arg2 harg2 arg3 harg3 arg4 harg4) K := by
    intro E K
    simp only [cc0__mm_kernel_eq_skeleton]; unfold cc0__mm_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0)
    sl_step
    rw [load_whole rfl arg1 harg1 _ zero_off _ x0, load_whole rfl arg4 harg4 _ zero_off _ s]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact read_store_slab arg3 harg3 (k0_off1 i) (k0_off1_inb i) Y (k0_pay2 x0 s)
    iexists _; isplitr; · ipureintro; exact harg4.read_unread _
    iexact HS0

set_option maxHeartbeats 1000000 in
/-- At the first point: the scratch buffer, holding anything, is filled with the second argument's block narrowed and then
    read back; the output block, holding `Y`, ends with the product of the first argument's block and that on rows
    `[0, 400)`. -/
theorem run_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S2000x128 .f32) (harg3 : arg3.IsWhole) (arg4 : Memref sig .tc .vmem S10000x128 .bf16) (harg4 : arg4.IsWhole) (hc0 : first i)
    (x0 : Vec F S400x10000 .f32) (x1 : Vec F S10000x128 .f32) (Y : Vec F S2000x128 .f32) :
      ∀ (E : Set ℕ) (K : PUnit → sProp 𝕄),
        iprop(owns (c : Thread nD τ) arg1 fullShare x0 ∗ owns (c : Thread nD τ) arg2 fullShare x1 ∗ owns (c : Thread nD τ) arg3 fullShare Y ∗ (∃ d, owns (c : Thread nD τ) arg4 fullShare d)
            ∗ (iprop(owns (c : Thread nD τ) arg1 fullShare x0 ∗ owns (c : Thread nD τ) arg2 fullShare x1
                ∗ owns (c : Thread nD τ) arg3 fullShare (slab (k0_off1 i) (k0_off1_inb i) Y (k0_pay2 x0 (k0_pay1 x1)))
                ∗ owns (c : Thread nD τ) arg4 fullShare (k0_pay1 x1)) -∗ K ⟨⟩))
          ⊢ wp frame (wpE (defs₀ (F := F)) Variants.none c none) E (cc0__mm_kernel i arg1 harg1 arg2 harg2 arg3 harg3 arg4 harg4) K := by
    intro E K
    simp only [cc0__mm_kernel_eq_skeleton]; unfold cc0__mm_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0)
    sl_step
    have hfill : run_first.sl.HS0_1 c arg2 harg2 x1
        = [(⟨Rect.unit (s := S10000x128) ![0, 0] S10000x128.size inb_S10000x128_S10000x128_0_0, k0_pay1 x1⟩ : View.Piece (Elt F) S10000x128 .bf16)] := by
      unfold run_first.sl.HS0_1
      rw [load_whole rfl arg2 harg2 _ zero_off _ x1]
    have hback : run_first.sl.v6 c arg2 harg2 arg4 x1 = k0_pay1 x1 := by
      unfold run_first.sl.v6
      rw [hfill]
      exact View.readCov_unit_zero (Val := Elt F) arg4.view zero_off inb_S10000x128_S10000x128_0_0 (k0_pay1 x1)
    rw [load_whole rfl arg1 harg1 _ zero_off _ x0, hback, hfill]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact read_store_slab arg3 harg3 (k0_off1 i) (k0_off1_inb i) Y (k0_pay2 x0 (k0_pay1 x1))
    iexists _; isplitr; swap; · iexact HS0
    ipureintro
    funext y
    exact View.read_writes_cons_unit_of_mem (Val := Elt F) arg4.view fs0 inb_S10000x128_S10000x128_0_0 (k0_pay1 x1) [] y y rfl
      (fun a => by fin_cases a <;> exact (Nat.zero_add _).symm)

end Cert.KernelIdeal.Hand

end
-- ==== Proof.Data.lean ====
/-
  The pipeline's proof data, the body obligation and the run, at any float instance.

  The grid has 25 points. The first argument's block changes at every point; the second argument is one block, fetched
  once; the output array is cut into five blocks of 2000 rows, block `t / 5` staged over the five points
  `5 * (t / 5) … 5 * (t / 5) + 4` and written back after the last of them. A point changes only its own 400 rows of the
  staged output block, so what the block holds after a point is stated as a RELATION to what it held before
  (`step`): the first point of a group of five is handed a block whose contents nothing names.
  The scratch buffer is carried from point to point: from the first point on it holds the second argument narrowed
  (`kept`), which the invariant `inv` records.
-/
import proofs.«144783_g26963804685200_cont_9to1_293_19_alg».proof.Proof.Gen.KernelIdeal.Frame
import proofs.«144783_g26963804685200_cont_9to1_293_19_alg».proof.Proof.Gen.KernelIdeal.Skeleton
import proofs.«144783_g26963804685200_cont_9to1_293_19_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev mem0 (t : Fin cfg0.N) : Memref sig .tc .vmem S400x10000 .f32 := win0_0.stage (cfg0.slots t 0)
abbrev mem1 (t : Fin cfg0.N) : Memref sig .tc .vmem S10000x128 .f32 := win0_1.stage (cfg0.slots t 1)
abbrev mem2 (t : Fin cfg0.N) : Memref sig .tc .vmem S2000x128 .f32 := win0_2.stage (cfg0.slots t 2)
/-- The scratch buffer: a whole scoped buffer of the kernel's own. -/
abbrev scratch : Memref sig .tc .vmem S10000x128 .bf16 := Memref.whole cc0_scratch0

/-- The class's invariant hands the body the scratch buffer at some contents, and the generator register. -/
theorem PhiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## What the scratch buffer carries -/

/-- The first grid point. -/
abbrev t0 : Fin cfg0.N := ⟨0, by decide⟩

/-- The second argument's one block, narrowed: what the first point leaves in the scratch buffer. -/
def kept (c : Dev nD) : Vec F S10000x128 .bf16 := k0_pay1 (iblk m c 1 t0)

/-- The invariant before point `n`: before the first the class's (the scratch at anything), afterwards the scratch at
    `kept`. -/
def inv (c : Dev nD) : ℕ → sProp 𝕄
  | 0 => Pipeline.ΦA spec0 c
  | _ + 1 => iprop(iprop(owns (c : Thread nD τ) scratch fullShare (kept m c)) ∗ (∃ r, prngReg c r))

theorem inv_succ (c : Dev nD) (n : ℕ) :
    inv m c (n + 1) = iprop(iprop(owns (c : Thread nD τ) scratch fullShare (kept m c)) ∗ (∃ r, prngReg c r)) := rfl

theorem inv_pos (c : Dev nD) (n : ℕ) (h : n ≠ 0) :
    inv m c n = iprop(iprop(owns (c : Thread nD τ) scratch fullShare (kept m c)) ∗ (∃ r, prngReg c r)) := by
  cases n with
  | zero => exact absurd rfl h
  | succ n => rfl

/-! ## The proof data -/

/-- The exact part: the arrays as the region finds them, each input's buffer at its block after the body, the
    invariant. The output window's entry is a placeholder, replaced below by the relation `step`. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := inv m c t.val
  q _ := fullShare
  owed _ := 0

/-- The 400 x 128 product point `t` stores: its block of the first argument against `kept`. -/
def prod (c : Dev nD) (t : Fin cfg0.N) : FVec F S400x128 .f32 := k0_pay2 (iblk m c 0 t) (kept m c)

/-- What point `t` makes of the staged output block: its own 400 rows replaced by `prod`, the rest kept. -/
def step (c : Dev nD) (t : Fin cfg0.N) (Y X : Vec F S2000x128 .f32) : Prop :=
  X = slab (k0_off1 (grid0.coords t)) (k0_off1_inb (grid0.coords t)) Y (prod m c t)

/-- The proof data: exact for the inputs, the relation `step` for the output window. -/
def rdat (c : Dev nD) : RDat τ (Elt F) Unit ℕ (UR sig nD τ) ℕ cfg0 c :=
  (dat m c).toR.override fun w => match w with
    | ⟨0, _⟩ => none
    | ⟨1, _⟩ => none
    | ⟨2, _⟩ => some (step m c)

theorem rdat_A (c : Dev nD) (w : Fin cfg0.W) : (rdat m c).A w = V m c (Pipeline.arrRef spec0 w) := by
  dsimp only [rdat, dat, RDat.override, Dat.toR]

theorem after2 (c : Dev nD) : (rdat m c).after 2 = step m c :=
  RDat.override_after_of_eq_some (rd := (dat m c).toR) rfl

theorem after0 (c : Dev nD) (t : Fin cfg0.N) (Y X : Vec F S400x10000 .f32) :
    (rdat m c).after 0 t Y X ↔ X = iblk m c 0 t := by
  rw [show (rdat m c).after 0 = (dat m c).toR.after 0 from RDat.override_after_of_eq_none (rd := (dat m c).toR) rfl]
  show (dat m c).Leaves 0 t X ↔ _
  rw [Dat.Leaves.live_iff _ (.inl rfl)]
  dsimp only [dat]
  exact Iff.rfl

theorem after1 (c : Dev nD) (t : Fin cfg0.N) (Y X : Vec F S10000x128 .f32) :
    (rdat m c).after 1 t Y X ↔ X = iblk m c 1 t := by
  rw [show (rdat m c).after 1 = (dat m c).toR.after 1 from RDat.override_after_of_eq_none (rd := (dat m c).toR) rfl]
  show (dat m c).Leaves 1 t X ↔ _
  rw [Dat.Leaves.live_iff _ (.inl rfl)]
  dsimp only [dat]
  exact Iff.rfl

/-- An input's staging buffer is found at its block, fetched at the point or not. -/
theorem finds0 (c : Dev nD) (t : Fin cfg0.N) (Y : Vec F S400x10000 .f32) (h : (rdat m c).Finds 0 t Y) : Y = iblk m c 0 t := by
  unfold rdat at h
  have h' : (dat m c).toR.Finds 0 t Y := (RDat.override_finds (rd := (dat m c).toR) (w := 0) rfl t Y).mp h
  obtain ⟨d, rfl⟩ := (dat m c).toR_finds 0 t Y h'
  exact before0_0_of m (dat m c) (by dsimp only [dat]) (fun t => by dsimp only [dat]) t d

theorem finds1 (c : Dev nD) (t : Fin cfg0.N) (Y : Vec F S10000x128 .f32) (h : (rdat m c).Finds 1 t Y) : Y = iblk m c 1 t := by
  unfold rdat at h
  have h' : (dat m c).toR.Finds 1 t Y := (RDat.override_finds (rd := (dat m c).toR) (w := 1) rfl t Y).mp h
  obtain ⟨d, rfl⟩ := (dat m c).toR_finds 1 t Y h'
  exact before0_1_of m (dat m c) (by dsimp only [dat]) (fun t => by dsimp only [dat]) t d

end Cert.KernelIdeal.Hand

end
-- ==== Proof.Run.lean ====
/-
  The body obligation at every point, and the run of the whole program.

  At a point the body is handed its two input blocks (found at the arrays' blocks, fetched there or not), the staged
  output block at whatever the points before left in it, and the invariant; it returns the inputs as they were, the
  output block one `step` further, and the invariant of the next point. At the first point that is the first
  triple (the scratch buffer filled), at every other the second (the scratch buffer read).
  The library's launch then gives: every weakly fair execution terminates, the output array ends at contents obtained
  from its entry contents by five write-backs of blocks the points may have left, and the argument arrays are unchanged.
-/
import proofs.«144783_g26963804685200_cont_9to1_293_19_alg».proof.Proof.Gen.KernelIdeal.Frame
import proofs.«144783_g26963804685200_cont_9to1_293_19_alg».proof.Proof.Gen.KernelIdeal.Skeleton
import proofs.«144783_g26963804685200_cont_9to1_293_19_alg».proof.Proof.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at point `t`, its inputs at their blocks and the staged output block at `Y`. -/
theorem sound_body (c : Dev nD) (t : Fin cfg0.N) (Y : Vec F S2000x128 .f32) :
    iprop((rdat m c).Φ t.castSucc ∗ (rdat m c).owesAt () t.castSucc
        ∗ owns (c : Thread nD τ) (mem0 t) fullShare (iblk m c 0 t) ∗ owns (c : Thread nD τ) (mem1 t) fullShare (iblk m c 1 t)
        ∗ owns (c : Thread nD τ) (mem2 t) fullShare Y)
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (iblk m c 0 t) X⌝ ∗ owns (c : Thread nD τ) (mem0 t) fullShare X)
          ∗ (∃ X, ⌜(rdat m c).after 1 t (iblk m c 1 t) X⌝ ∗ owns (c : Thread nD τ) (mem1 t) fullShare X)
          ∗ (∃ X, ⌜(rdat m c).after 2 t Y X⌝ ∗ owns (c : Thread nD τ) (mem2 t) fullShare X))) := by
  unfold bodyAt0
  rw [show (rdat m c).owesAt () t.succ = (rdat m c).owesAt () t.castSucc from rfl,
    show (rdat m c).Φ t.succ = inv m c (t.val + 1) from rfl, inv_succ,
    show (rdat m c).Φ t.castSucc = inv m c t.val from rfl]
  by_cases hz : t.val = 0
  · obtain rfl : t = t0 := Fin.ext hz
    rw [show inv m c (t0 : Fin cfg0.N).val = Pipeline.ΦA spec0 c from rfl, PhiA_eq]
    iintro ⟨⟨HS, Hg⟩, Ho, H0, H1, H2⟩
    iapply (run_first c (grid0.coords t0) _ _ _ _ _ _ _ _ ((first_iff t0).mpr rfl) (iblk m c 0 t0) (iblk m c 1 t0) Y Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexact HS
      iexact Hg
    isplitl [Ho]; · iexact Ho
    isplitl [H0]
    · iexists _; isplitr; swap; · iexact H0
      ipureintro; exact (after0 m c t0 _ _).mpr rfl
    isplitl [H1]
    · iexists _; isplitr; swap; · iexact H1
      ipureintro; exact (after1 m c t0 _ _).mpr rfl
    iexists _; isplitr; swap; · iexact H2
    ipureintro; rw [after2]; exact rfl
  · rw [inv_pos m c t.val hz]
    iintro ⟨⟨HS, Hg⟩, Ho, H0, H1, H2⟩
    iapply (run_later c (grid0.coords t) _ _ _ _ _ _ _ _ (fun h => hz ((first_iff t).mp h)) (iblk m c 0 t) (iblk m c 1 t) Y (kept m c) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexact HS
      iexact Hg
    isplitl [Ho]; · iexact Ho
    isplitl [H0]
    · iexists _; isplitr; swap; · iexact H0
      ipureintro; exact (after0 m c t _ _).mpr rfl
    isplitl [H1]
    · iexists _; isplitr; swap; · iexact H1
      ipureintro; exact (after1 m c t _ _).mpr rfl
    iexists _; isplitr; swap; · iexact H2
    ipureintro; rw [after2]; exact rfl

/-- The library's body obligation for the relational proof data, at every point. -/
theorem body_obligation (c : Dev nD) : (rdat m c).BodyObligation (defs₀ (F := F)) Variants.none () Set.univ := fun t Y hY => by
  have e0 := finds0 m c t (Y 0) (hY 0)
  have e1 := finds1 m c t (Y 1) (hY 1)
  rw [bigSep_W0, bigSep_W0, e0, e1]
  exact sound_body m c t (Y 2)

/-- What the launch hands the region is the invariant before the first point. -/
theorem hin (c : Dev nD) : Pipeline.ΦA spec0 c ⊢ (rdat m c).Φ 0 := by
  show (Pipeline.ΦA spec0 c : sProp 𝕄) ⊢ Pipeline.ΦA spec0 c
  exact .rfl

/-- After the last point the invariant gives the class's back: what the scratch buffer holds is forgotten. -/
theorem hout (c : Dev nD) : (rdat m c).Φ (Fin.last cfg0.N) ⊢ Pipeline.ΦA spec0 c := by
  rw [show (rdat m c).Φ (Fin.last cfg0.N) = inv m c (Fin.last cfg0.N).val from rfl,
    inv_pos m c _ (by rw [Fin.val_last]; have : cfg0.N = 25 := N_0; omega), PhiA_eq]
  iintro ⟨HS, Hg⟩
  isplitl [HS]
  · iexists _; iexact HS
  iexact Hg

set_option backward.isDefEq.respectTransparency.types false in
/-- Every weakly fair execution of the program terminates; every array of the pipeline ends at contents the proof data
    allows after every write-back, every other unscoped buffer as it was. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := rdat_A m) (hin := hin m) (hout := hout m)

/-- The frame: the program runs and its two argument arrays end as they began (an input array is never written
    back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun ((rdat m c).ArrAt_in 0 rfl _) _) ((h c).1 0)).trans ((rdat_A m c 0).trans (V_main_arg0 m c)),
      (Eq.mp (congrFun ((rdat m c).ArrAt_in 1 rfl _) _) ((h c).1 1)).trans ((rdat_A m c 1).trans (V_main_arg1 m c))⟩)
    (run_main m ρ)

end Cert.KernelIdeal.Hand

end
-- ==== Proof.Payload.lean ====
/-
  The body's two payloads read at an index, over the extended reals.

  Narrowing a float is the identity there, so what the first point leaves in the scratch buffer is the second
  argument's block itself, and the product a point stores is, at row `p` and column `q`,
  `∑ k, a (p, k) * s (k, q)` over the 10000 columns of the point's block `a` of the first argument: a matrix
  product into a zero accumulator is that plain sum.
-/
import proofs.«144783_g26963804685200_cont_9to1_293_19_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- What the scratch buffer is filled with is the block itself. -/
theorem narrowed_eq (x1 : Vec Ideal S10000x128 .f32) :
    (k0_pay1 (F := Ideal) x1 : S10000x128.Idx → EReal) = x1 := by
  unfold k0_pay1
  exact shapeCast_self _ _

theorem lhs_row (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_col (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_row (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_col (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The stored product at row `j 0`, column `j 1`: the sum over the 10000 columns of the block. -/
theorem product_apply (a : Vec Ideal S400x10000 .f32) (s : Vec Ideal S10000x128 .bf16) (j : S400x128.Idx) :
    k0_pay2 (F := Ideal) a s j
      = ∑ k : Fin 10000, (a (ix2 (n0 := 400) (n1 := 10000) ⟨(j 0).val, (j 0).isLt⟩ k) : EReal) * s (ix2 (n0 := 10000) (n1 := 128) k ⟨(j 1).val, (j 1).isLt⟩) := by
  unfold k0_pay2
  show FloatOps.matmul dot_S400x10000_S10000x128_S400x128_1_0_0_1_n_n none (truncf .bf16 a bitsLt_bf16_f32) s (constant (F := Ideal) S400x128 .f32 0x00000000#32) j = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx j ((contrEquiv1 dot_S400x10000_S10000x128_S400x128_1_0_0_1_n_n 10000 rfl rfl).symm k) = ix2 (n0 := 400) (n1 := 10000) ⟨(j 0).val, (j 0).isLt⟩ k := funext fun a => Fin.ext (by
    match a with
    | ⟨0, _⟩ => exact lhs_row _ _
    | ⟨1, _⟩ => exact (lhs_col _ _).trans hk)
  have er : dot_S400x10000_S10000x128_S400x128_1_0_0_1_n_n.rhsIdx j ((contrEquiv1 dot_S400x10000_S10000x128_S400x128_1_0_0_1_n_n 10000 rfl rfl).symm k) = ix2 (n0 := 10000) (n1 := 128) k ⟨(j 1).val, (j 1).isLt⟩ := funext fun a => Fin.ext (by
    match a with
    | ⟨0, _⟩ => exact (rhs_row _ _).trans hk
    | ⟨1, _⟩ => exact rhs_col _ _)
  rw [el, er]
  rfl

end Cert.KernelIdeal.Hand

end
-- ==== Proof.Spec.lean ====
/-
  The specification: the result of both programs as one function of the two argument arrays.

  For `adj : [10000, 10000]` and `x : [10000, 128]` over the extended reals, entry `(r, q)` of the result is the
  contraction `∑ k, adj (r, k) * x (k, q)` over the 10000 columns of `adj`. Sums of extended reals are sums in a
  commutative monoid, so the value does not depend on the order in which a program adds the terms, nor on how it
  cuts the rows into blocks.
-/
import Idealize.ShloMosaic.PureOps.Ideal
import Idealize.ShloMosaic.Lib.ValueIdx

noncomputable section

namespace Cert.Spec

open Idealize.ShloMosaic Idealize.ShloMosaic.ValueIdx

/-- The matrix product of `adj` and `x`, entry by entry. -/
def mm (adj : (⟨2, ![10000, 10000]⟩ : Shape).Idx → EReal) (x : (⟨2, ![10000, 128]⟩ : Shape).Idx → EReal) :
    (⟨2, ![10000, 128]⟩ : Shape).Idx → EReal :=
  fun i => ∑ k : Fin 10000, adj (ix2 (n0 := 10000) (n1 := 10000) ⟨(i 0).val, (i 0).isLt⟩ k)
    * x (ix2 (n0 := 10000) (n1 := 128) k ⟨(i 1).val, (i 1).isLt⟩)

end Cert.Spec

end
-- ==== Proof.Value.lean ====
/-
  What the idealized kernel leaves in its result array: the matrix product of its two arguments.

  Write `T (r, q) = ∑ k, adj (r, k) * x (k, q)`. Point `t` stores rows `400 t … 400 t + 399` of `T` into rows
  `400 (t mod 5) …` of the staged output block, whose array position is rows `2000 (t / 5) …`; since
  `2000 (t / 5) + 400 (t mod 5) = 400 t`, after the point the staged block agrees with block `t / 5` of `T` on its
  first `400 (t mod 5) + 400` rows (induction along the five points of a group: the point before left the rows below,
  and this point does not touch them). At the last point of a group that is the whole block, which is then written
  back; the five write-backs cover the array, so it ends holding `T`.
-/
import proofs.«144783_g26963804685200_cont_9to1_293_19_alg».proof.Proof.Run
import proofs.«144783_g26963804685200_cont_9to1_293_19_alg».proof.Proof.Payload
import proofs.«144783_g26963804685200_cont_9to1_293_19_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat RDat Cfg Window cellOf)

variable (m : (ℓ : Loc nD τ sig) → Buf (Elt Ideal) ℓ) (ρ : Dev nD → PrngReg)

/-! ## The target -/

/-- The two argument arrays as the region finds them. -/
def argA (c : Dev nD) : S10000x10000.Idx → EReal := V m c main_arg0
def argB (c : Dev nD) : S10000x128.Idx → EReal := V m c main_arg1

/-- The product of the two argument arrays. -/
def target (c : Dev nD) : S10000x128.Idx → EReal := Cert.Spec.mm (argA m c) (argB m c)

/-- The same read at natural-number coordinates (zero outside the array). -/
def T (c : Dev nD) (r q : ℕ) : EReal :=
  if h : r < 10000 ∧ q < 128 then target m c (ix2 (n0 := 10000) (n1 := 128) ⟨r, h.1⟩ ⟨q, h.2⟩) else 0

/-! ## The schedule, decided over the grid -/

/-- Where each window's block sits at point `t`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val / 5 ∧ win0_2.index t (1 : Fin 2) = 0 :=
  (by decide +kernel : ∀ t : Fin grid0.N, _)

/-- The rows point `t` stores into. -/
theorem off_facts : ∀ t : Fin cfg0.N, k0_off1 (grid0.coords t) (0 : Fin 2) = 400 * (t.val % 5) ∧ k0_off1 (grid0.coords t) (1 : Fin 2) = 0 :=
  (by decide +kernel : ∀ t : Fin grid0.N, _)

/-- The output window is never fetched. -/
theorem fetch2 : ∀ t : Fin cfg0.N, (cfg0.win 2).fetch t = false :=
  (by decide +kernel : ∀ t : Fin grid0.N, win0_2.fetch t = false)

theorem N25 : cfg0.N = 25 := N_0

/-! ## Blocks read at an index -/

theorem block0_apply (c : Dev nD) (t : Fin cfg0.N) (p : Fin 400) (k : Fin 10000) (h : 400 * t.val + p.val < 10000) :
    iblk m c 0 t (ix2 (n0 := 400) (n1 := 10000) p k)
      = argA m c (ix2 (n0 := 10000) (n1 := 10000) ⟨400 * t.val + p.val, h⟩ k) := by
  obtain ⟨e0, e1, -⟩ := index_facts t
  unfold iblk argA
  rw [View.read_apply]
  show V m c main_arg0 (((cfg0.win 0).blk t).view.emb (ix2 (n0 := 400) (n1 := 10000) p k)) = V m c main_arg0 _
  refine congrArg _ (funext fun a => Fin.ext ?_)
  match a with
  | ⟨0, _⟩ => show win0_0.index t (0 : Fin 2) * 400 + 1 * p.val = 400 * t.val + p.val; omega
  | ⟨1, _⟩ => show win0_0.index t (1 : Fin 2) * 10000 + 1 * k.val = k.val; omega

theorem block1_apply (c : Dev nD) (t : Fin cfg0.N) (k : Fin 10000) (q : Fin 128) :
    iblk m c 1 t (ix2 (n0 := 10000) (n1 := 128) k q) = argB m c (ix2 (n0 := 10000) (n1 := 128) k q) := by
  obtain ⟨-, -, e0, e1, -⟩ := index_facts t
  unfold iblk argB
  rw [View.read_apply]
  show V m c main_arg1 (((cfg0.win 1).blk t).view.emb (ix2 (n0 := 10000) (n1 := 128) k q)) = V m c main_arg1 _
  refine congrArg _ (funext fun a => Fin.ext ?_)
  match a with
  | ⟨0, _⟩ => show win0_1.index t (0 : Fin 2) * 10000 + 1 * k.val = k.val; omega
  | ⟨1, _⟩ => show win0_1.index t (1 : Fin 2) * 128 + 1 * q.val = q.val; omega

/-- Block `t / 5` of the target: what the output window's array position at point `t` should end holding. -/
def tblk (c : Dev nD) (t : Fin cfg0.N) : Vec Ideal S2000x128 .f32 :=
  ((cfg0.win 2).blk t).view.read (Elt Ideal) (target m c)

theorem tblk_apply (c : Dev nD) (t : Fin cfg0.N) (y : S2000x128.Idx) :
    tblk m c t y = T m c (2000 * (t.val / 5) + (y 0).val) (y 1).val := by
  obtain ⟨-, -, -, -, e0, e1⟩ := index_facts t
  have ht : t.val < 25 := lt_of_lt_of_eq t.isLt N25
  have h0 : (y 0).val < 2000 := (y 0).isLt
  have h1 : (y 1).val < 128 := (y 1).isLt
  unfold tblk T
  have hr : 2000 * (t.val / 5) + (y 0).val < 10000 := by omega
  rw [View.read_apply, dif_pos ⟨hr, h1⟩]
  show target m c (((cfg0.win 2).blk t).view.emb y)
    = target m c (ix2 (n0 := 10000) (n1 := 128) ⟨2000 * (t.val / 5) + (y 0).val, hr⟩ ⟨(y 1).val, h1⟩)
  refine congrArg (target m c) (funext fun a => Fin.ext ?_)
  match a with
  | ⟨0, _⟩ => show win0_2.index t (0 : Fin 2) * 2000 + 1 * (y 0).val = 2000 * (t.val / 5) + (y 0).val; omega
  | ⟨1, _⟩ => show win0_2.index t (1 : Fin 2) * 128 + 1 * (y 1).val = (y 1).val; omega

/-! ## The product a point stores -/

theorem prod_target (c : Dev nD) (t : Fin cfg0.N) (j : S400x128.Idx) :
    prod m c t j = T m c (400 * t.val + (j 0).val) (j 1).val := by
  have ht : t.val < 25 := lt_of_lt_of_eq t.isLt N25
  have h0 : (j 0).val < 400 := (j 0).isLt
  have h1 : (j 1).val < 128 := (j 1).isLt
  have hr : 400 * t.val + (j 0).val < 10000 := by omega
  unfold prod T
  rw [product_apply, dif_pos ⟨hr, h1⟩]
  unfold target Cert.Spec.mm
  refine Finset.sum_congr rfl fun k _ => ?_
  rw [block0_apply m c t ⟨(j 0).val, h0⟩ k hr]
  unfold kept
  rw [narrowed_eq, block1_apply m c t0 k ⟨(j 1).val, h1⟩]

/-! ## A block with rows replaced, read at an index -/

theorem slab_outside (off : Fin 2 → ℕ) (inb : ∀ a, off a + S400x128.size a ≤ S2000x128.size a) (Y : Vec Ideal S2000x128 .f32)
    (w : (Rect.unit (s := S2000x128) off S400x128.size inb).shape.Idx → Elt Ideal .f32) (y : S2000x128.Idx)
    (h : (y 0).val < off 0 ∨ off 0 + 400 ≤ (y 0).val) : slab off inb Y w y = Y y := by
  unfold slab
  rw [dif_neg]
  intro hall
  have := hall 0
  change off 0 ≤ (y 0).val ∧ (y 0).val < off 0 + 400 at this
  omega

theorem slab_inside (off : Fin 2 → ℕ) (inb : ∀ a, off a + S400x128.size a ≤ S2000x128.size a) (Y : Vec Ideal S2000x128 .f32)
    (w : (Rect.unit (s := S2000x128) off S400x128.size inb).shape.Idx → Elt Ideal .f32) (y : S2000x128.Idx)
    (h : ∀ a, off a ≤ (y a).val ∧ (y a).val < off a + S400x128.size a) :
    slab off inb Y w y = w (Rect.unitLocal (s := S2000x128) (off := off) (size := S400x128.size) y h) := by
  unfold slab
  rw [dif_pos h]

/-! ## Along the five points of a group -/

/-- What a point finds in the staged output block, and what it leaves: the rows of the target below its own, and
    those with its own. -/
theorem rows (c : Dev nD) : ∀ (n : ℕ) (t : Fin cfg0.N), t.val = n →
    (∀ Y, (rdat m c).Finds 2 t Y → ∀ y : S2000x128.Idx, (y 0).val < 400 * (t.val % 5) → Y y = tblk m c t y)
    ∧ (∀ X, (rdat m c).Leaves 2 t X → ∀ y : S2000x128.Idx, (y 0).val < 400 * (t.val % 5) + 400 → X y = tblk m c t y) := by
  intro n
  induction n using Nat.strong_induction_on with
  | _ n ih =>
    intro t htn
    have ht : t.val < 25 := lt_of_lt_of_eq t.isLt N25
    have hfound : ∀ Y, (rdat m c).Finds 2 t Y → ∀ y : S2000x128.Idx, (y 0).val < 400 * (t.val % 5) → Y y = tblk m c t y := by
      intro Y hY y hy
      have hpos : t.val ≠ 0 := by
        intro h0; rw [h0] at hy; omega
      rcases ((rdat m c).finds_of_pos (fetch2 t) hpos Y).mp hY with hfl | hL
      · exfalso
        have := (flush0_2 ⟨t.val - 1, Nat.lt_of_le_of_lt (Nat.sub_le _ _) t.isLt⟩).mp hfl
        change (t.val - 1) % 5 = 4 at this
        omega
      · have hprev := (ih (t.val - 1) (by omega) ⟨t.val - 1, Nat.lt_of_le_of_lt (Nat.sub_le _ _) t.isLt⟩ rfl).2 Y hL y
          (by change (y 0).val < 400 * ((t.val - 1) % 5) + 400; omega)
        rw [hprev, tblk_apply, tblk_apply]
        change T m c (2000 * ((t.val - 1) / 5) + (y 0).val) (y 1).val = _
        have : (t.val - 1) / 5 = t.val / 5 := by omega
        rw [this]
    refine ⟨hfound, ?_⟩
    rintro X ⟨Y, hY, hstep⟩ y hy
    rw [after2] at hstep
    unfold step at hstep
    obtain ⟨o0, o1⟩ := off_facts t
    have h0 : (y 0).val < 2000 := (y 0).isLt
    have h1 : (y 1).val < 128 := (y 1).isLt
    rw [hstep]
    by_cases hin : 400 * (t.val % 5) ≤ (y 0).val
    · have hall : ∀ a, k0_off1 (grid0.coords t) a ≤ (y a).val ∧ (y a).val < k0_off1 (grid0.coords t) a + S400x128.size a := by
        intro a
        match a with
        | ⟨0, _⟩ => show k0_off1 (grid0.coords t) (0 : Fin 2) ≤ (y 0).val ∧ (y 0).val < k0_off1 (grid0.coords t) (0 : Fin 2) + 400; omega
        | ⟨1, _⟩ => show k0_off1 (grid0.coords t) (1 : Fin 2) ≤ (y 1).val ∧ (y 1).val < k0_off1 (grid0.coords t) (1 : Fin 2) + 128; omega
      rw [slab_inside _ _ _ _ y hall, prod_target, tblk_apply]
      rw [Rect.unitLocal_val, Rect.unitLocal_val, o0, o1]
      have e0 : 400 * t.val + ((y 0).val - 400 * (t.val % 5)) = 2000 * (t.val / 5) + (y 0).val := by omega
      rw [e0, Nat.sub_zero]
    · rw [slab_outside _ _ _ _ y (Or.inl (by rw [o0]; omega))]
      exact hfound Y hY y (by omega)

/-- At the last point of a group the block left is the target's. -/
theorem leaves_flush (c : Dev nD) (t : Fin cfg0.N) (hf : (cfg0.win 2).flush t = true) (X : Vec Ideal S2000x128 .f32)
    (hX : (rdat m c).Leaves 2 t X) : X = tblk m c t := by
  have h4 : t.val % 5 = 4 := (flush0_2 t).mp hf
  funext y
  have h0 : (y 0).val < 2000 := (y 0).isLt
  exact (rows m c t.val t rfl).2 X hX y (by omega)

end Cert.KernelIdeal.Hand

end
-- ==== Proof.Final.lean ====
/-
  The result array after the run, and the run with the result named.

  The relational proof data says of the result array only that it is its entry contents overwritten, at each of the
  five write-backs, by a block the point may have left. At a write-back point that block is block `t / 5` of the
  target (the five-point induction), so the array after `n` points is what exact proof data with that block would
  compute; those five blocks of 2000 rows cover the 10000 rows, hence the array ends holding the target.
-/
import proofs.«144783_g26963804685200_cont_9to1_293_19_alg».proof.Proof.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat RDat Cfg Window cellOf)

variable (m : (ℓ : Loc nD τ sig) → Buf (Elt Ideal) ℓ) (ρ : Dev nD → PrngReg)

/-- Exact proof data that leaves the target's block in the output window: what the write-backs are compared with. -/
def comp (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tblk m c t
  Φ t := inv m c t.val
  q _ := fullShare
  owed _ := 0

theorem comp_after2 (c : Dev nD) (t : Fin cfg0.N) : (comp m c).after 2 t = tblk m c t := by dsimp only [comp]

/-- After the write-backs below `n` the result array is what the exact data computes. -/
theorem arr_eq (c : Dev nD) : ∀ (n : ℕ) (G : Buf (Elt Ideal) ((cfg0.win 2).arr.view.loc (c.tc : Thread nD τ))),
    (rdat m c).ArrAt 2 n G → G = (comp m c).arrAt 2 n
  | 0, G, h => h
  | n + 1, G, h => by
    simp only [RDat.ArrAt] at h
    simp only [Dat.arrAt]
    by_cases hn : n < cfg0.N
    · rw [dif_pos hn] at h ⊢
      by_cases hf : (cfg0.win 2).flush ⟨n, hn⟩ = true
      · rw [if_pos hf] at h ⊢
        obtain ⟨G₀, X, hG, hX, rfl⟩ := h
        have e1 := arr_eq c n G₀ hG
        have e2 := leaves_flush m c ⟨n, hn⟩ hf X hX
        subst e1; subst e2
        unfold Dat.flushed
        rw [comp_after2]
      · rw [if_neg hf] at h ⊢; exact arr_eq c n G h
    · rw [dif_neg hn] at h ⊢; exact arr_eq c n G h

/-- An index of the result array is in point `t`'s block iff each coordinate is in the block's range. -/
theorem mem_blk (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row `r` is written back by the last point of group `r / 2000`. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hlt : 5 * ((i 0).val / 2000) + 4 < cfg0.N := by rw [N25]; omega
  obtain ⟨-, -, -, -, e0, e1⟩ := index_facts ⟨5 * ((i 0).val / 2000) + 4, hlt⟩
  change win0_2.index ⟨5 * ((i 0).val / 2000) + 4, hlt⟩ (0 : Fin 2) = (5 * ((i 0).val / 2000) + 4) / 5 at e0
  refine ⟨⟨5 * ((i 0).val / 2000) + 4, hlt⟩, (flush0_2 _).mpr (by show (5 * ((i 0).val / 2000) + 4) % 5 = 4; omega), ?_⟩
  rw [mem_blk]
  intro a
  match a with
  | ⟨0, _⟩ =>
    show win0_2.index ⟨5 * ((i 0).val / 2000) + 4, hlt⟩ (0 : Fin 2) * 2000 ≤ (i 0).val ∧ (i 0).val < win0_2.index ⟨5 * ((i 0).val / 2000) + 4, hlt⟩ (0 : Fin 2) * 2000 + 2000
    omega
  | ⟨1, _⟩ =>
    show win0_2.index ⟨5 * ((i 0).val / 2000) + 4, hlt⟩ (1 : Fin 2) * 128 ≤ (i 1).val ∧ (i 1).val < win0_2.index ⟨5 * ((i 0).val / 2000) + 4, hlt⟩ (1 : Fin 2) * 128 + 128
    omega

/-- The result array after the run is the target. -/
theorem final (c : Dev nD) : (comp m c).arrAt 2 cfg0.N = target m c :=
  (comp m c).arrAt_eq_of_cover 2 (target m c) (fun t _ => by
    show (cfg0.win 2).cut (grid0.coords t) ((comp m c).after 2 t) = _
    rw [comp_after2]; rfl) cover

/-- The run, read: every weakly fair execution terminates with the result array at the product of the argument arrays,
    the argument arrays unchanged. -/
theorem run : θ_run defs (onTc (τ := τ) (main (F := Ideal))) ⟨m, fun _ => 0, ρ⟩ fun r => ∀ c : Dev nD,
      r.2.mem ((c.tc : Thread nD τ).loc main_v0) = target m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(arr_eq m c cfg0.N _ ((h c).1 2)).trans (final m c),
      (Eq.mp (congrFun ((rdat m c).ArrAt_in 0 rfl _) _) ((h c).1 0)).trans ((rdat_A m c 0).trans (V_main_arg0 m c)),
      (Eq.mp (congrFun ((rdat m c).ArrAt_in 1 rfl _) _) ((h c).1 1)).trans ((rdat_A m c 1).trans (V_main_arg1 m c))⟩)
    (run_main m ρ)

end Cert.KernelIdeal.Hand

end
-- ==== Proof.RefValue.lean ====
/-
  The reference computes the same function.

  The reference is one contraction of the two arrays on the host; read at an index over the extended reals it is the
  sum `∑ k, adj (r, k) * x (k, q)`, which is the specification.
-/
import proofs.«144783_g26963804685200_cont_9to1_293_19_alg».proof.Proof.Gen.ReferenceIdeal.Read
import proofs.«144783_g26963804685200_cont_9to1_293_19_alg».proof.Proof.Spec

noncomputable section

namespace Cert.ReferenceIdeal.RefValue

open Cert.ReferenceIdeal Cert.ReferenceIdeal.Gen
open Idealize.ShloMosaic Idealize.ShloMosaic.ValueIdx

/-- The host's contraction of two arrays is their matrix product, entry by entry. -/
theorem result_eq (x0 : (⟨S10000x10000, .f32⟩ : BufTy).Contents (Elt Ideal)) (x1 : (⟨S10000x128, .f32⟩ : BufTy).Contents (Elt Ideal)) :
    (Read.val_main_v0 (F := Ideal) x0 x1 : S10000x128.Idx → EReal) = Cert.Spec.mm x0 x1 := by
  funext i
  rw [Read.val_main_v0_apply]
  unfold Cert.Spec.mm
  refine Finset.sum_congr rfl fun k _ => ?_
  have el : Read.lidx_main_v0 i k = ix2 (n0 := 10000) (n1 := 10000) ⟨(i 0).val, (i 0).isLt⟩ k :=
    funext fun a => Fin.ext (by match a with | ⟨0, _⟩ => rfl | ⟨1, _⟩ => rfl)
  have er : Read.ridx_main_v0 i k = ix2 (n0 := 10000) (n1 := 128) k ⟨(i 1).val, (i 1).isLt⟩ :=
    funext fun a => Fin.ext (by match a with | ⟨0, _⟩ => rfl | ⟨1, _⟩ => rfl)
  rw [el, er]

end Cert.ReferenceIdeal.RefValue

end
-- ==== Proof.lean ====
/-
  The certificate: a dense matrix product `adj @ x`, `adj : [10000, 10000]`, `x : [10000, 128]`, computed by a kernel
  that walks 25 row blocks of `adj`, keeps `x` (narrowed at the first grid point) in a scratch buffer, and stores each
  400 x 128 product into its place in an output block that stays staged for five grid points — against one
  contraction on the host.

  Over the extended reals narrowing a float is the identity and a matrix product into a zero accumulator is the plain
  sum, so both programs compute `∑ k, adj (r, k) * x (k, q)` at every entry (`Cert.Spec.mm`); no law that needs
  finiteness is used, so the precondition is never opened.

  * the frames of the word-level kernel and of its idealization: the body's two triples (first point, later points)
    at any float instance, the proof data stating the staged output block as a relation between what a point finds and
    what it leaves, and the library's launch (Body, Data, Run and their copies for the word-level program);
  * the reference's frame: its run with the result dropped;
  * the idealization rewrote nothing, so the program read at the extended reals is its own idealization;
  * the two results: the kernel's result array (Value, Final) and the reference's (RefValue) are both the
    specification of arguments that agree.
-/
import proofs.«144783_g26963804685200_cont_9to1_293_19_alg».proof.Defs
import proofs.«144783_g26963804685200_cont_9to1_293_19_alg».proof.Proof.Gen.Kernel
import proofs.«144783_g26963804685200_cont_9to1_293_19_alg».proof.Proof.Gen.KernelIdeal
import proofs.«144783_g26963804685200_cont_9to1_293_19_alg».proof.Proof.Gen.ReferenceIdeal
import proofs.«144783_g26963804685200_cont_9to1_293_19_alg».proof.Proof.Gen.ReferenceIdeal.Run
import proofs.«144783_g26963804685200_cont_9to1_293_19_alg».proof.Proof.Gen.ReferenceIdeal.Read
import proofs.«144783_g26963804685200_cont_9to1_293_19_alg».proof.Proof.Gen.Pre_finite_inputs
import proofs.«144783_g26963804685200_cont_9to1_293_19_alg».proof.Proof.KRun
import proofs.«144783_g26963804685200_cont_9to1_293_19_alg».proof.Proof.Final
import proofs.«144783_g26963804685200_cont_9to1_293_19_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the product of the argument arrays. -/
theorem algebraic : Cert.algebraic_KernelIdeal_ReferenceIdeal := by
  intro m ρ m' ρ' _ hagree
  refine ⟨fun c => Cert.KernelIdeal.Hand.target m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
